-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 5
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | .local _ .vmem, ⟨6, _⟩ => ⟨S512x4096, .f32⟩
  | .local _ .vmem, ⟨7, _⟩ => ⟨S512x4096, .f32⟩
  | .local _ .vmem, ⟨8, _⟩ => ⟨S4096x512, .f32⟩
  | .local _ .vmem, ⟨9, _⟩ => ⟨S4096x512, .f32⟩
  | .local _ .vmem, ⟨10, _⟩ => ⟨S512x512, .f32⟩
  | .local _ .vmem, ⟨11, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x4096.size a
  hwx1_1 : ∀ i : grid1.Coords, EltTy.bits .f32 = 32 ∨ (Rect.block (s := S4096x4096) S4096x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .f32 = 32 ∨ (Rect.block (s := S4096x4096) S512x512.size (cc1_transform_2 i) (hinb1_2 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.MatProduct.lean ====
/-
  The product of two 4096 × 4096 arrays over the extended reals, entry by entry:

      (x · w)[p, q] = Σ_{k < 4096} x[p, k] · w[k, q],

  and the one fact about the matrix unit the certificate needs: a 512 × 4096 block of rows of the left factor times a
  4096 × 512 block of columns of the right factor, each first narrowed to bf16 and accumulated into zero, is at entry
  (p, q) the inner product of row p of the first block with column q of the second. Over the extended reals a change of
  float format is the identity, so the narrowing does not show; the whole contraction axis sits inside one block, so
  the block's sum is already the full sum of the product.
-/
import proofs.«152254_j30494267801970_1_alg».proof.Proof.LibMatmulNN
import Idealize.ShloMosaic.PureOps.Ideal
import Idealize.ShloMosaic.PureOps.Ideal.Laws
import Idealize.ShloMosaic.Lib.ValueIdx

noncomputable section

namespace Cert.MatProduct

open Idealize.ShloMosaic Idealize.ShloMosaic.ValueIdx

/-- The matrix product x · w, as a function of the output index. -/
def prod (x w : FVec Ideal ⟨2, ![4096, 4096]⟩ .f32) : FVec Ideal ⟨2, ![4096, 4096]⟩ .f32 :=
  fun i => ∑ k : Fin 4096, x (ix2 (i 0) k) * w (ix2 k (i 1))

/-- The product at a row p and a column q. -/
theorem prod_apply (x w : FVec Ideal ⟨2, ![4096, 4096]⟩ .f32) (p q : Fin 4096) :
    prod x w (ix2 p q) = ∑ k : Fin 4096, x (ix2 p k) * w (ix2 k q) := rfl

/-- A block of rows times a block of columns on the matrix unit, both narrowed to bf16, into zero: at (p, q) the inner
    product of row p with column q over the whole contraction axis. -/
theorem block_apply (D : DotDims ⟨2, ![512, 4096]⟩ ⟨2, ![4096, 512]⟩ ⟨2, ![512, 512]⟩) (hD : D = DotDims.plain 512 4096 512)
    (prec : Option ContractPrecision) (x0 : FVec Ideal ⟨2, ![512, 4096]⟩ .f32) (x1 : FVec Ideal ⟨2, ![4096, 512]⟩ .f32)
    (h : (FTy.bf16).bits < (FTy.f32).bits) (p q : Fin 512) :
    FloatOps.matmul D prec (truncf .bf16 x0 h) (truncf .bf16 x1 h) (constant (F := Ideal) ⟨2, ![512, 512]⟩ .f32 0x00000000#32) (ix2 p q)
      = ∑ k : Fin 4096, x0 (ix2 p k) * x1 (ix2 k q) := by
  rw [MatmulNN.matmul_zero_apply D hD prec _ _ p q]
  rfl

end Cert.MatProduct

end
-- ==== Proof.Region0.lean ====
/-
  Region 0 of the kernel: one tiled matrix product. The grid is 8 × 8; point (i, j) reads rows 512·i … 512·i + 511 of
  the left array (all 4096 columns) and columns 512·j … 512·j + 511 of the right array (all 4096 rows), multiplies the
  two blocks on the matrix unit, and writes the 512 × 512 result as block (i, j) of the output array.

  Stated at a parameter `V`, the contents the region finds its arrays at:
  * the body's result at an entry (p, q) of the block is the inner product of row p of the left block with column q of
    the right block (`pay_apply`);
  * entry (p, k) of the left block is entry (512·i + p, k) of the left array, entry (k, q) of the right block is entry
    (k, 512·j + q) of the right array (`lhs_block`, `rhs_block`);
  * so what point t writes back is block t of the product of the two arrays (`flushed_eq`);
  * the 64 output blocks tile the output array (`cover`), which therefore ends holding the product (`final`).
-/
import proofs.«152254_j30494267801970_1_alg».proof.Proof.Gen.KernelIdeal.Frame
import proofs.«152254_j30494267801970_1_alg».proof.Proof.MatProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's result at (p, q): row p of the left block against column q of the right block. -/
theorem pay_apply (x0 : Vec Ideal S512x4096 .f32) (x1 : Vec Ideal S4096x512 .f32) (p q : Fin 512) :
    k0_pay1 (F := Ideal) x0 x1 (ix2 p q) = ∑ k : Fin 4096, x0 (ix2 p k) * x1 (ix2 k q) := by
  unfold k0_pay1
  exact MatProduct.block_apply _ rfl none x0 x1 _ p q

/-- The three index maps over the grid: the left window follows the output's row block and stays at column block 0,
    the right window stays at row block 0 and follows the output's column block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2) :=
  (by decide +kernel : ∀ t : Fin grid0.N, _)

/-- Every block (i, j) of the 8 × 8 tiling is some grid point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- Entry y of the left block at point t is the left array at the output's row block and y's own column. -/
theorem lhs_block (c : Dev nD) (t : Fin cfg0.N) (y : S512x4096.Idx) (i : S4096x4096.Idx)
    (h0 : (i 0).val = win0_2.index t (0 : Fin 2) * 512 + (y 0).val) (h1 : (i 1).val = (y 1).val) :
    (iblk0 V c 0 t : Vec Ideal S512x4096 .f32) y = (V c main_arg0 : S4096x4096.Idx → Elt Ideal .f32) i := by
  obtain ⟨e0, e1, -, -⟩ := idx_facts t
  unfold iblk0
  rw [View.read_apply]
  show V c main_arg0 _ = V c main_arg0 _
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 4096 + 1 * (y 1).val = (i 1).val; rw [e1, h1]; omega

/-- Entry y of the right block at point t is the right array at y's own row and the output's column block. -/
theorem rhs_block (c : Dev nD) (t : Fin cfg0.N) (y : S4096x512.Idx) (i : S4096x4096.Idx)
    (h0 : (i 0).val = (y 0).val) (h1 : (i 1).val = win0_2.index t (1 : Fin 2) * 512 + (y 1).val) :
    (iblk0 V c 1 t : Vec Ideal S4096x512 .f32) y = (V c main_arg2 : S4096x4096.Idx → Elt Ideal .f32) i := by
  obtain ⟨-, -, e2, e3⟩ := idx_facts t
  unfold iblk0
  rw [View.read_apply]
  show V c main_arg2 _ = V c main_arg2 _
  congr 1
  funext a
  apply Fin.ext
  match a with
  | ⟨0, _⟩ => show win0_1.index t (0 : Fin 2) * 4096 + 1 * (y 0).val = (i 0).val; rw [e2, h0]; omega
  | ⟨1, _⟩ => show win0_1.index t (1 : Fin 2) * 512 + 1 * (y 1).val = (i 1).val; rw [e3, h1]; omega

/-- The body's result at entry j of the block is the product of the two arrays at the entry i of the output array that
    j is in block t. -/
theorem block_eq (c : Dev nD) (t : Fin cfg0.N) (j : S512x512.Idx) (i : S4096x4096.Idx)
    (h0 : (i 0).val = win0_2.index t (0 : Fin 2) * 512 + (j 0).val)
    (h1 : (i 1).val = win0_2.index t (1 : Fin 2) * 512 + (j 1).val) :
    k0_pay1 (F := Ideal) (iblk0 V c 0 t) (iblk0 V c 1 t) j = MatProduct.prod (V c main_arg0) (V c main_arg2) i := by
  obtain ⟨p, q, rfl⟩ : ∃ (p q : Fin 512), j = ix2 p q := ⟨j 0, j 1, eq_ix2 j⟩
  refine (pay_apply (iblk0 V c 0 t) (iblk0 V c 1 t) p q).trans ?_
  unfold MatProduct.prod
  refine Finset.sum_congr rfl fun k _ => ?_
  exact congrArg₂ (fun a b : EReal => a * b)
    (lhs_block V c t (ix2 p k) (ix2 (i 0) k) h0 rfl)
    (rhs_block V c t (ix2 k q) (ix2 k (i 1)) rfl h1)

/-- WHAT POINT t WRITES BACK is block t of the product of the two arrays as the region finds them. -/
theorem flushed_eq (c : Dev nD) (t : Fin cfg0.N) :
    (dat0 V c).flushed 2 t = ((cfg0.win 2).blk t).view.read (Elt Ideal) (MatProduct.prod (V c main_arg0) (V c main_arg2)) := by
  show (cfg0.win 2).cut (grid0.coords t) ((dat0 V c).after 2 t) = _
  rw [after0_2]
  unfold out0_2
  rw [View.canon_unit_zero hz]
  simp only [View.ld_unit_zero (S := S512x4096) hz, View.ld_unit_zero (S := S4096x512) hz]
  funext j
  rw [View.read_apply]
  refine block_eq V c t j _ ?_ ?_
  · show win0_2.index t (0 : Fin 2) * 512 + 1 * (j 0).val = _; omega
  · show win0_2.index t (1 : Fin 2) * 512 + 1 * (j 1).val = _; omega

/-- An index of the output array is in point t's block iff each coordinate is in the block's range on its axis. -/
theorem mem_blk (t : Fin cfg0.N) (i : S4096x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- The 64 blocks tile the output array: entry (r, s) lies in the block of the point whose output block is
    (r / 512, s / 512). -/
theorem cover (i : S4096x4096.Idx) : ∃ t : Fin cfg0.N, (cfg0.win 2).flush t = true ∧ i ∈ ((cfg0.win 2).blk t).view.set := by
  have hi0 : (i 0).val < 4096 := idx2_lt0 i
  have hi1 : (i 1).val < 4096 := idx2_lt1 i
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- THE OUTPUT ARRAY after the region is the product of the two input arrays as the region found them. -/
theorem final (c : Dev nD) : (dat0 V c).arrAt 2 cfg0.N = MatProduct.prod (V c main_arg0) (V c main_arg2) :=
  (dat0 V c).arrAt_eq_of_cover 2 (MatProduct.prod (V c main_arg0) (V c main_arg2)) (fun t _ => flushed_eq V c t) cover

end Cert.KernelIdeal.Region0

end
-- ==== Proof.Region1.lean ====
/-
  Region 1 of the kernel: one tiled matrix product. The grid is 8 × 8; point (i, j) reads rows 512·i … 512·i + 511 of
  the left array (all 4096 columns) and columns 512·j … 512·j + 511 of the right array (all 4096 rows), multiplies the
  two blocks on the matrix unit, and writes the 512 × 512 result as block (i, j) of the output array.

  Stated at a parameter `V`, the contents the region finds its arrays at:
  * the body's result at an entry (p, q) of the block is the inner product of row p of the left block with column q of
    the right block (`pay_apply`);
  * entry (p, k) of the left block is entry (512·i + p, k) of the left array, entry (k, q) of the right block is entry
    (k, 512·j + q) of the right array (`lhs_block`, `rhs_block`);
  * so what point t writes back is block t of the product of the two arrays (`flushed_eq`);
  * the 64 output blocks tile the output array (`cover`), which therefore ends holding the product (`final`).
-/
import proofs.«152254_j30494267801970_1_alg».proof.Proof.Gen.KernelIdeal.Frame
import proofs.«152254_j30494267801970_1_alg».proof.Proof.MatProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's result at (p, q): row p of the left block against column q of the right block. -/
theorem pay_apply (x0 : Vec Ideal S512x4096 .f32) (x1 : Vec Ideal S4096x512 .f32) (p q : Fin 512) :
    k1_pay1 (F := Ideal) x0 x1 (ix2 p q) = ∑ k : Fin 4096, x0 (ix2 p k) * x1 (ix2 k q) := by
  unfold k1_pay1
  exact MatProduct.block_apply _ rfl none x0 x1 _ p q

/-- The three index maps over the grid: the left window follows the output's row block and stays at column block 0,
    the right window stays at row block 0 and follows the output's column block. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2) :=
  (by decide +kernel : ∀ t : Fin grid1.N, _)

/-- Every block (i, j) of the 8 × 8 tiling is some grid point's. -/
theorem idx_onto : ∀ (q0 q1 : Fin 8), ∃ t : Fin cfg1.N, win1_2.index t = ![q0.val, q1.val] :=
  (by decide +kernel : ∀ (q0 q1 : Fin 8), ∃ t : Fin grid1.N, win1_2.index t = ![q0.val, q1.val])

/-- Entry y of the left block at point t is the left array at the output's row block and y's own column. -/
theorem lhs_block (c : Dev nD) (t : Fin cfg1.N) (y : S512x4096.Idx) (i : S4096x4096.Idx)
    (h0 : (i 0).val = win1_2.index t (0 : Fin 2) * 512 + (y 0).val) (h1 : (i 1).val = (y 1).val) :
    (iblk1 V c 0 t : Vec Ideal S512x4096 .f32) y = (V c main_arg1 : S4096x4096.Idx → Elt Ideal .f32) i := by
  obtain ⟨e0, e1, -, -⟩ := idx_facts t
  unfold iblk1
  rw [View.read_apply]
  show V c main_arg1 _ = V c main_arg1 _
  congr 1
  funext a
  apply Fin.ext
  match a with
  | ⟨0, _⟩ => show win1_0.index t (0 : Fin 2) * 512 + 1 * (y 0).val = (i 0).val; rw [e0, h0]; omega
  | ⟨1, _⟩ => show win1_0.index t (1 : Fin 2) * 4096 + 1 * (y 1).val = (i 1).val; rw [e1, h1]; omega

/-- Entry y of the right block at point t is the right array at y's own row and the output's column block. -/
theorem rhs_block (c : Dev nD) (t : Fin cfg1.N) (y : S4096x512.Idx) (i : S4096x4096.Idx)
    (h0 : (i 0).val = (y 0).val) (h1 : (i 1).val = win1_2.index t (1 : Fin 2) * 512 + (y 1).val) :
    (iblk1 V c 1 t : Vec Ideal S4096x512 .f32) y = (V c main_arg2 : S4096x4096.Idx → Elt Ideal .f32) i := by
  obtain ⟨-, -, e2, e3⟩ := idx_facts t
  unfold iblk1
  rw [View.read_apply]
  show V c main_arg2 _ = V c main_arg2 _
  congr 1
  funext a
  apply Fin.ext
  match a with
  | ⟨0, _⟩ => show win1_1.index t (0 : Fin 2) * 4096 + 1 * (y 0).val = (i 0).val; rw [e2, h0]; omega
  | ⟨1, _⟩ => show win1_1.index t (1 : Fin 2) * 512 + 1 * (y 1).val = (i 1).val; rw [e3, h1]; omega

/-- The body's result at entry j of the block is the product of the two arrays at the entry i of the output array that
    j is in block t. -/
theorem block_eq (c : Dev nD) (t : Fin cfg1.N) (j : S512x512.Idx) (i : S4096x4096.Idx)
    (h0 : (i 0).val = win1_2.index t (0 : Fin 2) * 512 + (j 0).val)
    (h1 : (i 1).val = win1_2.index t (1 : Fin 2) * 512 + (j 1).val) :
    k1_pay1 (F := Ideal) (iblk1 V c 0 t) (iblk1 V c 1 t) j = MatProduct.prod (V c main_arg1) (V c main_arg2) i := by
  obtain ⟨p, q, rfl⟩ : ∃ (p q : Fin 512), j = ix2 p q := ⟨j 0, j 1, eq_ix2 j⟩
  refine (pay_apply (iblk1 V c 0 t) (iblk1 V c 1 t) p q).trans ?_
  unfold MatProduct.prod
  refine Finset.sum_congr rfl fun k _ => ?_
  exact congrArg₂ (fun a b : EReal => a * b)
    (lhs_block V c t (ix2 p k) (ix2 (i 0) k) h0 rfl)
    (rhs_block V c t (ix2 k q) (ix2 k (i 1)) rfl h1)

/-- WHAT POINT t WRITES BACK is block t of the product of the two arrays as the region finds them. -/
theorem flushed_eq (c : Dev nD) (t : Fin cfg1.N) :
    (dat1 V c).flushed 2 t = ((cfg1.win 2).blk t).view.read (Elt Ideal) (MatProduct.prod (V c main_arg1) (V c main_arg2)) := by
  show (cfg1.win 2).cut (grid1.coords t) ((dat1 V c).after 2 t) = _
  rw [after1_2]
  unfold out1_2
  rw [View.canon_unit_zero hz]
  simp only [View.ld_unit_zero (S := S512x4096) hz, View.ld_unit_zero (S := S4096x512) hz]
  funext j
  rw [View.read_apply]
  refine block_eq V c t j _ ?_ ?_
  · show win1_2.index t (0 : Fin 2) * 512 + 1 * (j 0).val = _; omega
  · show win1_2.index t (1 : Fin 2) * 512 + 1 * (j 1).val = _; omega

/-- An index of the output array is in point t's block iff each coordinate is in the block's range on its axis. -/
theorem mem_blk (t : Fin cfg1.N) (i : S4096x4096.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v1).slice (win1_2.rect t)).set ↔ _
  rw [View.set_slice_whole, Rect.mem_set_unit]
  exact Iff.rfl

/-- The 64 blocks tile the output array: entry (r, s) lies in the block of the point whose output block is
    (r / 512, s / 512). -/
theorem cover (i : S4096x4096.Idx) : ∃ t : Fin cfg1.N, (cfg1.win 2).flush t = true ∧ i ∈ ((cfg1.win 2).blk t).view.set := by
  have hi0 : (i 0).val < 4096 := idx2_lt0 i
  have hi1 : (i 1).val < 4096 := idx2_lt1 i
  obtain ⟨t, ht⟩ := idx_onto ⟨(i 0).val / 512, by omega⟩ ⟨(i 1).val / 512, by omega⟩
  have q0 : win1_2.index t (0 : Fin 2) = (i 0).val / 512 := congrFun ht 0
  have q1 : win1_2.index t (1 : Fin 2) = (i 1).val / 512 := congrFun ht 1
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 512 ≤ (i 1).val ∧ (i 1).val < win1_2.index t (1 : Fin 2) * 512 + 512; omega

/-- THE OUTPUT ARRAY after the region is the product of the two input arrays as the region found them. -/
theorem final (c : Dev nD) : (dat1 V c).arrAt 2 cfg1.N = MatProduct.prod (V c main_arg1) (V c main_arg2) :=
  (dat1 V c).arrAt_eq_of_cover 2 (MatProduct.prod (V c main_arg1) (V c main_arg2)) (fun t _ => flushed_eq V c t) cover

end Cert.KernelIdeal.Region1

end
-- ==== Proof.KernelRun.lean ====
/-
  The kernel's run with its two result arrays named.

  The program is two tiled matrix products one after the other. Region 0 writes only the first result array and region 1
  only the second; neither writes an argument. So after both regions
  * the first result array still holds what region 0 left in it: the product of the first and third arguments, read
    where region 0 found them — the launch contents;
  * the second result array holds the product of the second and third arguments as region 1 found them, and region 1
    found them as launched, because region 0 only read the third argument and never touched the second.
  The run itself is the launch of the two regions' segments; its final memory is the fold of the two regions' write-backs
  over the launch memory, read here at the two result arrays as well as at the three arguments.
-/
import proofs.«152254_j30494267801970_1_alg».proof.Proof.Gen.KernelIdeal.Frame
import proofs.«152254_j30494267801970_1_alg».proof.Proof.Region0
import proofs.«152254_j30494267801970_1_alg».proof.Proof.Region1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first result array at the end: region 1 does not touch it, region 0 leaves the product of the first and third
    arguments, which it finds as launched. -/
theorem W2_main_v0 (c : Dev nD) : W2 m ρ c (Proc.devRef .tc main_v0)
    = MatProduct.prod (m ((c : Thread nD τ).loc main_arg0)) (m ((c : Thread nD τ).loc main_arg2)) :=
  calc W2 m ρ c (Proc.devRef .tc main_v0)
    _ = W1 m ρ c (Proc.devRef .tc main_v0) := W2_of_ne m ρ c main_v0 (by decide)
    _ = (dat0 (V0 m ρ) c).arrAt 2 cfg0.N := W1_arr m ρ c 2
    _ = MatProduct.prod (V0 m ρ c main_arg0) (V0 m ρ c main_arg2) := Region0.final (V0 m ρ) c
    _ = MatProduct.prod (m ((c : Thread nD τ).loc main_arg0)) (m ((c : Thread nD τ).loc main_arg2)) := rfl

/-- Region 1 finds the second argument as launched: region 0 has no window on it. -/
theorem V1_main_arg1 (c : Dev nD) : V1 m ρ c main_arg1 = m ((c : Thread nD τ).loc main_arg1) :=
  calc V1 m ρ c main_arg1
    _ = W0 m ρ c (Proc.devRef .tc main_arg1) := W1_of_ne m ρ c main_arg1 (by decide)
    _ = m ((c : Thread nD τ).loc main_arg1) := rfl

/-- Region 1 finds the third argument as launched: region 0 only read it. -/
theorem V1_main_arg2 (c : Dev nD) : V1 m ρ c main_arg2 = m ((c : Thread nD τ).loc main_arg2) :=
  calc V1 m ρ c main_arg2
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

/-- The second result array at the end: the product of the second and third arguments as launched. -/
theorem W2_main_v1 (c : Dev nD) : W2 m ρ c (Proc.devRef .tc main_v1)
    = MatProduct.prod (m ((c : Thread nD τ).loc main_arg1)) (m ((c : Thread nD τ).loc main_arg2)) :=
  calc W2 m ρ c (Proc.devRef .tc main_v1)
    _ = (dat1 (V1 m ρ) c).arrAt 2 cfg1.N := W2_arr m ρ c 2
    _ = MatProduct.prod (V1 m ρ c main_arg1) (V1 m ρ c main_arg2) := Region1.final (V1 m ρ) c
    _ = MatProduct.prod (m ((c : Thread nD τ).loc main_arg1)) (m ((c : Thread nD τ).loc main_arg2)) := by
      rw [V1_main_arg1, V1_main_arg2]

set_option backward.isDefEq.respectTransparency.types false in
/-- THE RUN: from any memory with zero counters every weakly fair execution of the program terminates, nothing faulting,
    with the first result array at the product of the first and third arguments, the second at the product of the
    second and third, and the three arguments as launched. The launch is the one over the two regions' segments; every
    unscoped buffer ends at the fold of the regions' write-backs, read at the five arrays. -/
theorem run : θ_run defs (onTc (τ := τ) (main (F := Ideal))) ⟨m, fun _ => 0, ρ⟩ (fun r => ∀ c : Dev nD,
      r.2.mem ((c.tc : Thread nD τ).loc main_v0) = MatProduct.prod (m ((c.tc : Thread nD τ).loc main_arg0)) (m ((c.tc : Thread nD τ).loc main_arg2))
      ∧ r.2.mem ((c.tc : Thread nD τ).loc main_v1) = MatProduct.prod (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v0 (by decide))).trans (W2_main_v0 m ρ c),
       (h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Run

end
-- ==== Proof.ReferenceProduct.lean ====
/-
  The reference computes the two matrix products directly: each of its results is one host contraction of an argument
  with the shared right factor, and read at an output index (p, q) that contraction is the sum over the shared axis of
  left[p, k] · right[k, q] — the product `MatProduct.prod` of the two arguments. The only work is to recognise the
  positions the contraction reads, (p, k) on the left and (k, q) on the right, as the product's own.
-/
import proofs.«152254_j30494267801970_1_alg».proof.Proof.Gen.ReferenceIdeal.Read
import proofs.«152254_j30494267801970_1_alg».proof.Proof.MatProduct

noncomputable section

namespace Cert.ReferenceIdeal.Product

open Cert.ReferenceIdeal Idealize.ShloMosaic Idealize.ShloMosaic.ValueIdx

/-- The left operand is read at row `i 0`, column k. -/
theorem lidx_v0 (i : S4096x4096.Idx) (k : Fin 4096) : Read.lidx_main_v0 i k = ix2 (i 0) k :=
  funext fun a => Fin.ext (by match a with | ⟨0, _⟩ => rfl | ⟨1, _⟩ => rfl)
/-- The right operand is read at row k, column `i 1`. -/
theorem ridx_v0 (i : S4096x4096.Idx) (k : Fin 4096) : Read.ridx_main_v0 i k = ix2 k (i 1) :=
  funext fun a => Fin.ext (by match a with | ⟨0, _⟩ => rfl | ⟨1, _⟩ => rfl)
theorem lidx_v1 (i : S4096x4096.Idx) (k : Fin 4096) : Read.lidx_main_v1 i k = ix2 (i 0) k :=
  funext fun a => Fin.ext (by match a with | ⟨0, _⟩ => rfl | ⟨1, _⟩ => rfl)
theorem ridx_v1 (i : S4096x4096.Idx) (k : Fin 4096) : Read.ridx_main_v1 i k = ix2 k (i 1) :=
  funext fun a => Fin.ext (by match a with | ⟨0, _⟩ => rfl | ⟨1, _⟩ => rfl)

/-- The first result is the product of the first argument with the third. -/
theorem v0_eq (x0 x2 : (⟨S4096x4096, .f32⟩ : BufTy).Contents (Elt Ideal)) :
    Read.val_main_v0 (F := Ideal) x0 x2 = MatProduct.prod x0 x2 := by
  funext i
  rw [Read.val_main_v0_apply]
  refine Finset.sum_congr rfl fun k _ => ?_
  rw [lidx_v0, ridx_v0]
  rfl

/-- The second result is the product of the second argument with the third. -/
theorem v1_eq (x1 x2 : (⟨S4096x4096, .f32⟩ : BufTy).Contents (Elt Ideal)) :
    Read.val_main_v1 (F := Ideal) x1 x2 = MatProduct.prod x1 x2 := by
  funext i
  rw [Read.val_main_v1_apply]
  refine Finset.sum_congr rfl fun k _ => ?_
  rw [lidx_v1, ridx_v1]
  rfl

end Cert.ReferenceIdeal.Product

end
-- ==== Proof.lean ====
/-
  Two matrix products sharing their right factor: from x_real, x_imag and op, each 4096 × 4096, the program returns
  (x_real · op, x_imag · op).

  The kernel computes each product by an 8 × 8 grid of tiles. Tile (i, j) of a product is rows 512·i … 512·i + 511 of the
  left factor, with the whole contraction axis, times columns 512·j … 512·j + 511 of op, again with the whole contraction
  axis, multiplied on the matrix unit after narrowing both blocks to bf16 and accumulated into zero. The reference
  contracts each pair of whole arrays at once.

  Over the extended reals the narrowing is the identity and the matrix unit's result into zero is the plain sum of
  products, so entry (p, q) of tile (i, j) is Σ_{k < 4096} x[512·i + p, k] · op[k, 512·j + q] — the very sum the
  reference's contraction has at entry (512·i + p, 512·j + q). Because a tile spans the whole contraction axis, no sum is
  split or reordered between the two programs: the two sides are the same finite sum, term for term, so no algebraic law
  and no finiteness of the inputs is needed. The 64 tiles cover the output array exactly once, and the second product
  finds op and x_imag untouched by the first.

  The pieces: `MatProduct` (the product as a function of the output index, and a tile on the matrix unit read at an
  entry), `Region0` / `Region1` (each region leaves the product of its two input arrays in its output array),
  `KernelRun` (the program's run with both result arrays named), `ReferenceProduct` (the reference's two contractions
  are the same products). The kernel's two frame claims are its generated frames, the reference's is its generated run with
  the two results dropped; the idealization rewrote nothing, so there is nothing to preserve.
-/
import proofs.«152254_j30494267801970_1_alg».proof.Defs
import proofs.«152254_j30494267801970_1_alg».proof.Proof.Gen.Kernel
import proofs.«152254_j30494267801970_1_alg».proof.Proof.Gen.Kernel.Skeleton
import proofs.«152254_j30494267801970_1_alg».proof.Proof.Gen.Kernel.Launch
import proofs.«152254_j30494267801970_1_alg».proof.Proof.Gen.Kernel.Points
import proofs.«152254_j30494267801970_1_alg».proof.Proof.Gen.Kernel.Frame
import proofs.«152254_j30494267801970_1_alg».proof.Proof.Gen.KernelIdeal
import proofs.«152254_j30494267801970_1_alg».proof.Proof.Gen.KernelIdeal.Skeleton
import proofs.«152254_j30494267801970_1_alg».proof.Proof.Gen.KernelIdeal.Launch
import proofs.«152254_j30494267801970_1_alg».proof.Proof.Gen.KernelIdeal.Points
import proofs.«152254_j30494267801970_1_alg».proof.Proof.Gen.KernelIdeal.Frame
import proofs.«152254_j30494267801970_1_alg».proof.Proof.Gen.ReferenceIdeal
import proofs.«152254_j30494267801970_1_alg».proof.Proof.Gen.ReferenceIdeal.Run
import proofs.«152254_j30494267801970_1_alg».proof.Proof.Gen.ReferenceIdeal.Read
import proofs.«152254_j30494267801970_1_alg».proof.Proof.Gen.Pre_finite_inputs
import proofs.«152254_j30494267801970_1_alg».proof.Proof.KernelRun
import proofs.«152254_j30494267801970_1_alg».proof.Proof.ReferenceProduct
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the three arguments both programs end with the first result at x_real · op and the
    second at x_imag · op: the kernel tile by tile, the reference by one contraction each, the same sums. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ?_) (Cert.ReferenceIdeal.Value.run (F := Ideal) m' ρ')
  obtain ⟨h0, h1, hargs⟩ := h c
  obtain ⟨a0, a1, a2⟩ := hagree c
  refine ⟨h0.trans ?_, h1.trans ?_, hargs⟩
  · rw [Cert.ReferenceIdeal.Read.val_main_v0_eq, Cert.ReferenceIdeal.Product.v0_eq, a0, a2]
  · rw [Cert.ReferenceIdeal.Read.val_main_v1_eq, Cert.ReferenceIdeal.Product.v1_eq, a1, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
